-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 117
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000, .f32⟩
  | .hbm, ⟨49, _⟩ => ⟨S1600000, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S1600000x1, .f32⟩
  | .hbm, ⟨60, _⟩ => ⟨S1600000x128, .f32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000, .f32⟩
  | .hbm, ⟨74, _⟩ => ⟨S100000x1, .f32⟩
  | .hbm, ⟨75, _⟩ => ⟨S100000x64, .f32⟩
  | .hbm, ⟨76, _⟩ => ⟨S100000x64, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000, .f32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000, .f32⟩
  | .hbm, ⟨96, _⟩ => ⟨S1600000, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x64, .f32⟩
  | .hbm, ⟨106, _⟩ => ⟨S1600000x1, .f32⟩
  | .hbm, ⟨107, _⟩ => ⟨S1600000x64, .f32⟩
  | .hbm, ⟨108, _⟩ => ⟨S1600000x64, .f32⟩
  | .hbm, ⟨109, _⟩ => ⟨S_, .f32⟩
  | .hbm, ⟨110, _⟩ => ⟨S100000x64, .f32⟩
  | .hbm, ⟨111, _⟩ => ⟨S1600000x1, .i32⟩
  | .hbm, ⟨112, _⟩ => ⟨S100000x64, .f32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S128x64, .f32⟩
  | .local _ .vmem, ⟨12, _⟩ => ⟨S5000x1, .f32⟩
  | .local _ .vmem, ⟨13, _⟩ => ⟨S5000x1, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52_0 : Ref sig .tc := ⟨.hbm, 75, rfl⟩
abbrev main_v52_1 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_13 : Ref sig .tc := ⟨.hbm, 97, rfl⟩
abbrev main_v69 : Ref sig .tc := ⟨.hbm, 98, rfl⟩
abbrev main_v70 : Ref sig .tc := ⟨.hbm, 99, rfl⟩
abbrev main_c_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  broadcasts_S5000x1_S5000x64 : S5000x1.Broadcasts S5000x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v52_0) S5000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v52_1) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S100000x128, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000, .f32⟩
  | 64 => ⟨S100000x1, .f32⟩
  | 65 => ⟨S100000x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x64, .f32⟩
  | 75 => ⟨S_, .f32⟩
  | 76 => ⟨S100000, .f32⟩
  | 77 => ⟨S1600000x1, .i32⟩
  | 78 => ⟨S100000, .f32⟩
  | 79 => ⟨S_, .f32⟩
  | 80 => ⟨S100000, .f32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S1600000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000, .f32⟩
  | 109 => ⟨S1600000, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x64, .f32⟩
  | 119 => ⟨S1600000x1, .f32⟩
  | 120 => ⟨S1600000x64, .f32⟩
  | 121 => ⟨S1600000x64, .f32⟩
  | 122 => ⟨S_, .f32⟩
  | 123 => ⟨S100000x64, .f32⟩
  | 124 => ⟨S1600000x1, .i32⟩
  | 125 => ⟨S100000x64, .f32⟩
  | 126 => ⟨S100000, .f32⟩
  | 127 => ⟨S100000x1, .f32⟩
  | _ => ⟨S100000x128, .f32⟩

abbrev hbmTy0_1 (i : Nat) : BufTy := match i % 128 with
  | 0 => ⟨S100000x64, .f32⟩
  | 1 => ⟨S100000x64, .f32⟩
  | 2 => ⟨S100000x64, .f32⟩
  | 3 => ⟨S1x64, .f32⟩
  | 4 => ⟨S100000x64, .f32⟩
  | 5 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_17 : Ref sig .tc := ⟨.hbm, 110, rfl⟩
abbrev main_v78 : Ref sig .tc := ⟨.hbm, 111, rfl⟩
abbrev main_v79 : Ref sig .tc := ⟨.hbm, 112, rfl⟩
abbrev main_c_18 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_19 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KRun.lean ====
/-
  The idealized kernel program's run with EVERY buffer named: every weakly fair execution of its @main — host
  operations, the first matrix-product region, host operations, the second region, host operations — terminates, and
  each unscoped buffer of the TensorCore then holds what the fold of those segments over the launch memory leaves in
  it (`Gen.W9`). The frame only keeps the seven arguments of that final state; the value proof needs the result
  buffer too, so the same launch is stated here with the whole final valuation in its post.
-/
import proofs.«132174_j31482110279899_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates without a fault, and any
    property of the final memory that follows from "each unscoped buffer holds the segments' fold at it" holds. -/
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W9 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := hQ)

/-- The run with the result buffer and the seven arguments named. -/
theorem run : θ_run defs (onTc (τ := τ) (main (F := F))) ⟨m, fun _ => 0, ρ⟩ (fun r => ∀ c : Dev nD,
      r.2.mem ((c.tc : Thread nD τ).loc main_v85) = W9 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_of m ρ fun s h c =>
    ⟨h c _ (mem_uc main_v85 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c)⟩

end Cert.KernelIdeal.Run

end
-- ==== Proof.Spec.lean ====
/-
  A two-layer graph convolution on 100000 nodes and 1600000 weighted edges, written once as a function of the seven
  argument arrays, over the extended reals.

  With src and dst the two rows of the edge list, deg = (sum of the weights of the edges arriving at a node) + 1 and
  dinv = deg^(-1/2) where deg > 0 (0 elsewhere), one layer sends node features X through a weight matrix W,
      H = X · W,
  and returns, row by row,
      (sum over edges e into the row of H[src e] · dinv[src e] · w e · dinv[dst e]) + H · dinv² + b.
  The result is layer₂(relu(layer₁(x))). Every step is spelt with the host operation that both programs use for it, so
  that the only places the two programs can differ are the two matrix products H and the two self-loop terms
  H · dinv², which enter `layer128` / `layer64` as arguments.
-/
import proofs.«132174_j31482110279899_2_alg».proof.Proof.Gen.ReferenceIdeal
import Idealize.ShloMosaic.PureOps.Ideal
import Idealize.ShloMosaic.Lib.ValueIdx

noncomputable section

namespace Cert.Gcn

open Cert.ReferenceIdeal Cert.ReferenceIdeal.Gen Idealize.ShloMosaic

/-- Float and integer arrays of a shape, over the extended reals. -/
abbrev TF (s : Shape) : Type := FVec Ideal s .f32
abbrev TI (s : Shape) : Type := IVec s 32

/-- Row 0 of the edge list: the source node of each edge. -/
def src (ei : TI S2x1600000) : TI S1600000 :=
  shapeCast S1600000 (extractStridedSlice S1x1600000 ![0, 0] ei slices_S2x1600000_S1x1600000_0_0) shapeCasts_S1x1600000_S1600000

/-- Row 1 of the edge list: the target node of each edge. -/
def dst (ei : TI S2x1600000) : TI S1600000 :=
  shapeCast S1600000 (extractStridedSlice S1x1600000 ![1, 0] ei slices_S2x1600000_S1x1600000_1_0) shapeCasts_S1x1600000_S1600000

/-- The weighted in-degree of every node, plus one for its self-loop. -/
def deg (ei : TI S2x1600000) (ew : TF S1600000) : TF S100000 :=
  addf (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 (dst ei)) ew)
    (broadcastInDim S100000 ![] bcast_S_S100000 (constant (F := Ideal) S_ .f32 0x3F800000#32))

/-- deg^(-1/2) where the degree is positive, 0 elsewhere. -/
def dinv (ei : TI S2x1600000) (ew : TF S1600000) : TF S100000 :=
  select (cmpf .ogt (deg ei ew) (broadcastInDim S100000 ![] bcast_S_S100000 (constant (F := Ideal) S_ .f32 0x00000000#32)))
    (Host.rsqrt (F := Ideal) (deg ei ew))
    (broadcastInDim S100000 ![] bcast_S_S100000 (constant (F := Ideal) S_ .f32 0x00000000#32))

/-- Node numbers as gather indices: a negative one counted from the end, then one index per row. -/
def wrap (ix : TI S1600000) : TI S1600000x1 :=
  broadcastInDim S1600000x1 ![0] bcast_S1600000_S1600000x1_0
    (select (cmpi .slt ix (broadcastInDim S1600000 ![] bcast_S_S1600000 (constantI S_ 32 0#32)))
      (addi ix (broadcastInDim S1600000 ![] bcast_S_S1600000 (constantI S_ 32 100000#32))) ix)

/-- The symmetric normalisation of every edge: dinv[src] · w · dinv[dst]. -/
def norm (dv : TF S100000) (ei : TI S2x1600000) (ew : TF S1600000) : TF S1600000 :=
  mulf (mulf (Host.gather gather_S100000_S1600000x1_S1600000_n_0_n_n_0_1_1 dv (wrap (src ei))) ew)
    (Host.gather gather_S100000_S1600000x1_S1600000_n_0_n_n_0_1_1 dv (wrap (dst ei)))

/-- dinv² as a column. -/
def sqcol (dv : TF S100000) : TF S100000x1 :=
  broadcastInDim S100000x1 ![0] bcast_S100000_S100000x1_0 (mulf dv dv)

/-- The first layer's matrix product. -/
def mm128 (X : TF S100000x128) (W : TF S128x128) : TF S100000x128 :=
  Host.dotGeneral (F := Ideal) dot_S100000x128_S128x128_S100000x128_1_0_0_1_n_n none X W

/-- A 128-wide matrix with every row scaled by its entry of a column. -/
def scaled128 (H : TF S100000x128) (col : TF S100000x1) : TF S100000x128 :=
  mulf H (broadcastInDim S100000x128 ![0, 1] bcast_S100000x1_S100000x128_0_1 col)

/-- The first layer after its matrix product: messages H[src] · norm summed into their target rows, plus the
    self-loop term, plus the bias. -/
def layer128 (H HS : TF S100000x128) (dv : TF S100000) (ei : TI S2x1600000) (ew : TF S1600000) (b : TF S128) : TF S100000x128 :=
  addf (addf (Host.scatterAdd (F := Ideal) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 (dst ei))
        (mulf (Host.gather gather_S100000x128_S1600000x1_S1600000x128_1_0_n_n_0_1_1128 H (wrap (src ei)))
          (broadcastInDim S1600000x128 ![0, 1] bcast_S1600000x1_S1600000x128_0_1
            (broadcastInDim S1600000x1 ![0] bcast_S1600000_S1600000x1_0 (norm dv ei ew)))))
      HS)
    (broadcastInDim S100000x128 ![0, 1] bcast_S1x128_S100000x128_0_1 (broadcastInDim S1x128 ![1] bcast_S128_S1x128_1 b))

/-- max(·, 0), entry by entry. -/
def relu (x : TF S100000x128) : TF S100000x128 :=
  maximumf x (broadcastInDim S100000x128 ![] bcast_S_S100000x128 (constant (F := Ideal) S_ .f32 0x00000000#32))

/-- The second layer's matrix product. -/
def mm64 (X : TF S100000x128) (W : TF S128x64) : TF S100000x64 :=
  Host.dotGeneral (F := Ideal) dot_S100000x128_S128x64_S100000x64_1_0_0_1_n_n none X W

/-- A 64-wide matrix with every row scaled by its entry of a column. -/
def scaled64 (H : TF S100000x64) (col : TF S100000x1) : TF S100000x64 :=
  mulf H (broadcastInDim S100000x64 ![0, 1] bcast_S100000x1_S100000x64_0_1 col)

/-- The second layer after its matrix product. -/
def layer64 (H HS : TF S100000x64) (dv : TF S100000) (ei : TI S2x1600000) (ew : TF S1600000) (b : TF S64) : TF S100000x64 :=
  addf (addf (Host.scatterAdd (F := Ideal) scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 (dst ei))
        (mulf (Host.gather gather_S100000x64_S1600000x1_S1600000x64_1_0_n_n_0_1_164 H (wrap (src ei)))
          (broadcastInDim S1600000x64 ![0, 1] bcast_S1600000x1_S1600000x64_0_1
            (broadcastInDim S1600000x1 ![0] bcast_S1600000_S1600000x1_0 (norm dv ei ew)))))
      HS)
    (broadcastInDim S100000x64 ![0, 1] bcast_S1x64_S100000x64_0_1 (broadcastInDim S1x64 ![1] bcast_S64_S1x64_1 b))

/-- The hidden features: relu of the first layer. -/
def hidden (x : TF S100000x128) (ei : TI S2x1600000) (ew : TF S1600000) (W1 : TF S128x128) (b1 : TF S128) : TF S100000x128 :=
  relu (layer128 (mm128 x W1) (scaled128 (mm128 x W1) (sqcol (dinv ei ew))) (dinv ei ew) ei ew b1)

/-- The network's result. -/
def out (x : TF S100000x128) (ei : TI S2x1600000) (ew : TF S1600000) (W1 : TF S128x128) (b1 : TF S128)
    (W2 : TF S128x64) (b2 : TF S64) : TF S100000x64 :=
  layer64 (mm64 (hidden x ei ew W1 b1) W2) (scaled64 (mm64 (hidden x ei ew W1 b1) W2) (sqcol (dinv ei ew))) (dinv ei ew) ei ew b2

end Cert.Gcn

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.LibColumns.lean ====
/-
  Small layout and reduction facts read by coordinates, at the exact values: a column broadcast along rows, a vector
  kept as a column, a lane sum along rows, and a maximum along columns.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibColumns

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane sum of an `[a, b]` matrix along its rows, at the exact values and read at row `r`: the sum over the row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- A maximum of an `[a, b]` matrix along its columns, at the exact values and read at column `c`: the fold of max from
    the accumulator's value over the column. -/
theorem multiReduction_max_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine congrArg (Finset.fold _ _ · _) (funext fun k => congrArg src (funext fun ax => Fin.ext ?_))
  match ax with
  | ⟨0, _⟩ => rfl
  | ⟨1, _⟩ => rfl

end Cert.LibColumns

end
-- ==== Proof.Region0.lean ====
/-
  The first matrix-product region, read as whole arrays over the extended reals.

  The region walks 20 grid points; point t stages rows 5000·t … 5000·t + 4999 of the node features X and of the
  column D, and all of the weight matrix W, and writes back the same rows of two results: the product rows
  (X · W)[r, ·] = Σ_k X[r, k] · W[k, ·], and those rows scaled by D[r]. The 20 row blocks tile the 100000 rows, so after
  the region the first result array is the host matrix product `mm128` of the arrays the region was entered with, and the
  second is that product with every row r scaled by D[r] (`scaled128`) — for whatever contents `V` the region finds.
-/
import proofs.«132174_j31482110279899_2_alg».proof.Proof.Gen.KernelIdeal.Frame
import proofs.«132174_j31482110279899_2_alg».proof.Proof.Spec
import proofs.«132174_j31482110279899_2_alg».proof.Proof.LibMatmulNN
import proofs.«132174_j31482110279899_2_alg».proof.Proof.LibHostMatmulNN
import proofs.«132174_j31482110279899_2_alg».proof.Proof.LibColumns
import Idealize.ShloMosaic.Lib.Pipeline.Value
import Idealize.ShloMosaic.Lib.ValueIdx

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The body's two stored values at an entry -/

/-- The stored product block at (p, q) is the sum over k of the feature block at (p, k) times the weight at (k, q):
    rounding the operands to bf16 is the identity on the extended reals, and the accumulator starts at zero. -/
theorem prod_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact Cert.LibMatmulNN.matmul_nn_apply dot_S5000x128_S128x128_S5000x128_1_0_0_1_n_n rfl rfl rfl rfl rfl rfl none
    (truncf .bf16 x0 bitsLt_bf16_f32) (truncf .bf16 x1 bitsLt_bf16_f32) p q

/-- The stored scaled block at (p, q) is the product block's entry times the column's entry of row p. -/
theorem scaled_apply (x0 : Vec Ideal S5000x128 .f32) (x1 : Vec Ideal S128x128 .f32) (x2 : Vec Ideal S5000x1 .f32)
    (p : Fin 5000) (q : Fin 128) :
    k0_pay2 (F := Ideal) x0 x1 x2 (ix2 p q) = (∑ k : Fin 128, x0 (ix2 p k) * x1 (ix2 k q)) * x2 (ix2 p (0 : Fin 1)) := by
  unfold k0_pay2
  show k0_pay1 (F := Ideal) x0 x1 (ix2 p q)
      * broadcastTo S5000x128 (shapeCast S5000x1 x2 shapeCasts_S5000x1_S5000x1) broadcasts_S5000x1_S5000x128 (ix2 p q) = _
  rw [prod_apply x0 x1 p q,
    Cert.LibColumns.broadcastTo_a1_ab_apply (shapeCast S5000x1 x2 shapeCasts_S5000x1_S5000x1) broadcasts_S5000x1_S5000x128 p q,
    shapeCast_self]

/-! ## The two whole-array functions at an entry -/

/-- The host matrix product at (r, q). -/
theorem mm_apply (X : Cert.Gcn.TF S100000x128) (W : Cert.Gcn.TF S128x128) (r : Fin 100000) (q : Fin 128) :
    Cert.Gcn.mm128 X W (ix2 r q) = ∑ k : Fin 128, X (ix2 r k) * W (ix2 k q) := by
  unfold Cert.Gcn.mm128
  exact Cert.LibHostMatmulNN.hostDot_nn_apply Cert.ReferenceIdeal.dot_S100000x128_S128x128_S100000x128_1_0_0_1_n_n rfl rfl rfl rfl rfl rfl none X W r q

/-- A matrix scaled row by row by a column, at (r, q). -/
theorem scaledcol_apply (H : Cert.Gcn.TF S100000x128) (col : Cert.Gcn.TF S100000x1) (r : Fin 100000) (q : Fin 128) :
    Cert.Gcn.scaled128 H col (ix2 r q) = H (ix2 r q) * col (ix2 r (0 : Fin 1)) := by
  unfold Cert.Gcn.scaled128
  show H (ix2 r q) * broadcastInDim _ ![0, 1] _ col (ix2 r q) = _
  refine congrArg (H (ix2 r q) * ·) (broadcastInDim_apply _ _ col (ix2 r q) (ix2 r (0 : Fin 1)) fun a => ?_)
  match a with
  | ⟨0, _⟩ => rfl
  | ⟨1, _⟩ => rfl

/-! ## The windows' blocks as rows of the arrays -/

/-- The printed index maps, decided over the 20 grid points: the row-blocked windows sit at block row t, the weight
    window at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The feature window's block at point t is rows 5000·t … of the feature array. -/
theorem rows_apply (c : Dev nD) (t : Fin cfg0.N) (p : Fin 5000) (k : Fin 128) (r : Fin 100000)
    (hr : r.val = t.val * 5000 + p.val) :
    (iblk0 V c 0 t : Vec Ideal S5000x128 .f32) (ix2 p k) = (V c main_arg0 : S100000x128.Idx → Elt Ideal .f32) (ix2 r k) := by
  obtain ⟨e0, e1, -⟩ := idx_facts t
  unfold iblk0
  rw [View.read_apply]
  show (V c main_arg0 : S100000x128.Idx → Elt Ideal .f32) _ = _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weight window's block at every point is the weight matrix. -/
theorem weights_apply (c : Dev nD) (t : Fin cfg0.N) (k : Fin 128) (q : Fin 128) :
    (iblk0 V c 1 t : Vec Ideal S128x128 .f32) (ix2 k q) = (V c main_arg3 : S128x128.Idx → Elt Ideal .f32) (ix2 k q) := by
  obtain ⟨-, -, e0, e1, -⟩ := idx_facts t
  unfold iblk0
  rw [View.read_apply]
  show (V c main_arg3 : S128x128.Idx → Elt Ideal .f32) _ = _
  refine congrArg _ (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The column window's block at point t is rows 5000·t … of the column. -/
theorem col_apply (c : Dev nD) (t : Fin cfg0.N) (p : Fin 5000) (r : Fin 100000) (hr : r.val = t.val * 5000 + p.val) :
    (iblk0 V c 2 t : Vec Ideal S5000x1 .f32) (ix2 p (0 : Fin 1)) = (V c main_v14 : S100000x1.Idx → Elt Ideal .f32) (ix2 r (0 : Fin 1)) := by
  obtain ⟨-, -, -, -, e0, e1, -⟩ := idx_facts t
  unfold iblk0
  rw [View.read_apply]
  show (V c main_v14 : S100000x1.Idx → Elt Ideal .f32) _ = _
  refine congrArg _ (funext fun a => Fin.ext ?_)
  match a with
  | ⟨0, _⟩ => show win0_2.index t (0 : Fin 2) * 5000 + 1 * p.val = r.val; rw [e0, hr]; omega
  | ⟨1, _⟩ => show win0_2.index t (1 : Fin 2) * 1 + 1 * 0 = 0; rw [e1]

/-! ## What each point writes back -/

/-- Point t writes back rows 5000·t … of the host matrix product of the entry arrays. -/
theorem flushed3_eq (c : Dev nD) (t : Fin cfg0.N) :
    (dat0 V c).flushed 3 t
      = ((cfg0.win 3).blk t).view.read (Elt Ideal) (Cert.Gcn.mm128 (V c main_arg0) (V c main_arg3)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz]
  funext j
  revert j
  show ∀ j : S5000x128.Idx, k0_pay1 (F := Ideal) (iblk0 V c 0 t) (iblk0 V c 1 t) j
    = Cert.Gcn.mm128 (V c main_arg0) (V c main_arg3) (((cfg0.win 3).blk t).view.emb j)
  intro j
  obtain ⟨p, q, rfl⟩ : ∃ (p : Fin 5000) (q : Fin 128), j = ix2 p q := ⟨j 0, j 1, eq_ix2 j⟩
  obtain ⟨-, -, -, -, -, -, e0, e1, -⟩ := idx_facts t
  have hN : cfg0.N = 20 := N_0
  have hr : t.val * 5000 + p.val < 100000 := by have := t.isLt; have := p.isLt; omega
  have hemb : ((cfg0.win 3).blk t).view.emb (ix2 p q) = (ix2 (⟨t.val * 5000 + p.val, hr⟩ : Fin 100000) q : S100000x128.Idx) :=
    funext fun a => Fin.ext (by
      match a with
      | ⟨0, _⟩ => show win0_3.index t (0 : Fin 2) * 5000 + 1 * p.val = t.val * 5000 + p.val; rw [e0]; omega
      | ⟨1, _⟩ => show win0_3.index t (1 : Fin 2) * 128 + 1 * q.val = q.val; rw [e1]; omega)
  rw [hemb, mm_apply]
  refine (prod_apply (iblk0 V c 0 t) (iblk0 V c 1 t) p q).trans (Finset.sum_congr rfl fun k _ => ?_)
  rw [rows_apply V c t p k ⟨t.val * 5000 + p.val, hr⟩ rfl, weights_apply V c t k q]

/-- Point t writes back rows 5000·t … of that product with every row scaled by the entry column. -/
theorem flushed4_eq (c : Dev nD) (t : Fin cfg0.N) :
    (dat0 V c).flushed 4 t
      = ((cfg0.win 4).blk t).view.read (Elt Ideal)
          (Cert.Gcn.scaled128 (Cert.Gcn.mm128 (V c main_arg0) (V c main_arg3)) (V c main_v14)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz, View.ld_unit_zero (S := S5000x1) hz]
  funext j
  revert j
  show ∀ j : S5000x128.Idx, k0_pay2 (F := Ideal) (iblk0 V c 0 t) (iblk0 V c 1 t) (iblk0 V c 2 t) j
    = Cert.Gcn.scaled128 (Cert.Gcn.mm128 (V c main_arg0) (V c main_arg3)) (V c main_v14) (((cfg0.win 4).blk t).view.emb j)
  intro j
  obtain ⟨p, q, rfl⟩ : ∃ (p : Fin 5000) (q : Fin 128), j = ix2 p q := ⟨j 0, j 1, eq_ix2 j⟩
  obtain ⟨-, -, -, -, -, -, -, -, e0, e1⟩ := idx_facts t
  have hN : cfg0.N = 20 := N_0
  have hr : t.val * 5000 + p.val < 100000 := by have := t.isLt; have := p.isLt; omega
  have hemb : ((cfg0.win 4).blk t).view.emb (ix2 p q) = (ix2 (⟨t.val * 5000 + p.val, hr⟩ : Fin 100000) q : S100000x128.Idx) :=
    funext fun a => Fin.ext (by
      match a with
      | ⟨0, _⟩ => show win0_4.index t (0 : Fin 2) * 5000 + 1 * p.val = t.val * 5000 + p.val; rw [e0]; omega
      | ⟨1, _⟩ => show win0_4.index t (1 : Fin 2) * 128 + 1 * q.val = q.val; rw [e1]; omega)
  rw [hemb, scaledcol_apply, mm_apply]
  refine (scaled_apply (iblk0 V c 0 t) (iblk0 V c 1 t) (iblk0 V c 2 t) p q).trans ?_
  rw [col_apply V c t p ⟨t.val * 5000 + p.val, hr⟩ rfl]
  refine congrArg (· * _) (Finset.sum_congr rfl fun k _ => ?_)
  rw [rows_apply V c t p k ⟨t.val * 5000 + p.val, hr⟩ rfl, weights_apply V c t k q]

/-! ## The row blocks tile the arrays -/

/-- Row r of a result array lies in the block of point r / 5000. -/
theorem cover3 (i : S100000x128.Idx) :
    ∃ t : Fin cfg0.N, (cfg0.win 3).flush t = true ∧ i ∈ ((cfg0.win 3).blk t).view.set := by
  have hN : cfg0.N = 20 := N_0
  have h0 : (i 0).val < 100000 := (i 0).isLt
  have h1 : (i 1).val < 128 := (i 1).isLt
  let t : Fin cfg0.N := ⟨(i 0).val / 5000, by rw [hN]; omega⟩
  obtain ⟨-, -, -, -, -, -, e0, e1, -⟩ := idx_facts t
  have ht : t.val = (i 0).val / 5000 := rfl
  refine ⟨t, flush0_3 t, ?_⟩
  show i ∈ ((View.whole main_v15_0).slice (win0_3.rect t)).set
  rw [View.set_slice_whole, Rect.mem_set_unit]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 128 ≤ (i 1).val ∧ (i 1).val < win0_3.index t (1 : Fin 2) * 128 + 128; rw [e1]; omega

theorem cover4 (i : S100000x128.Idx) :
    ∃ t : Fin cfg0.N, (cfg0.win 4).flush t = true ∧ i ∈ ((cfg0.win 4).blk t).view.set := by
  have hN : cfg0.N = 20 := N_0
  have h0 : (i 0).val < 100000 := (i 0).isLt
  have h1 : (i 1).val < 128 := (i 1).isLt
  let t : Fin cfg0.N := ⟨(i 0).val / 5000, by rw [hN]; omega⟩
  obtain ⟨-, -, -, -, -, -, -, -, e0, e1⟩ := idx_facts t
  have ht : t.val = (i 0).val / 5000 := rfl
  refine ⟨t, flush0_4 t, ?_⟩
  show i ∈ ((View.whole main_v15_1).slice (win0_4.rect t)).set
  rw [View.set_slice_whole, Rect.mem_set_unit]
  intro a
  match a with
  | ⟨0, _⟩ => show win0_4.index t (0 : Fin 2) * 5000 ≤ (i 0).val ∧ (i 0).val < win0_4.index t (0 : Fin 2) * 5000 + 5000; rw [e0, ht]; omega
  | ⟨1, _⟩ => show win0_4.index t (1 : Fin 2) * 128 ≤ (i 1).val ∧ (i 1).val < win0_4.index t (1 : Fin 2) * 128 + 128; rw [e1]; omega

/-! ## The two result arrays after the region -/

/-- The first result array ends at the host matrix product of the entry arrays. -/
theorem final3 (c : Dev nD) :
    (dat0 V c).arrAt 3 cfg0.N = Cert.Gcn.mm128 (V c main_arg0) (V c main_arg3) :=
  (dat0 V c).arrAt_eq_of_cover 3 _ (fun t _ => flushed3_eq V c t) cover3

/-- The second ends at that product with every row scaled by the entry column. -/
theorem final4 (c : Dev nD) :
    (dat0 V c).arrAt 4 cfg0.N
      = Cert.Gcn.scaled128 (Cert.Gcn.mm128 (V c main_arg0) (V c main_arg3)) (V c main_v14) :=
  (dat0 V c).arrAt_eq_of_cover 4 _ (fun t _ => flushed4_eq V c t) cover4

end Cert.KernelIdeal.Region0

end
-- ==== Proof.Region1.lean ====
/-
  The second matrix-product region, read as whole arrays over the extended reals.

  The region walks 20 grid points; point t stages rows 5000·t … 5000·t + 4999 of the node features X and of the
  column D, and all of the weight matrix W, and writes back the same rows of two results: the product rows
  (X · W)[r, ·] = Σ_k X[r, k] · W[k, ·], and those rows scaled by D[r]. The 20 row blocks tile the 100000 rows, so after
  the region the first result array is the host matrix product `mm64` of the arrays the region was entered with, and the
  second is that product with every row r scaled by D[r] (`scaled64`) — for whatever contents `V` the region finds.
-/
import proofs.«132174_j31482110279899_2_alg».proof.Proof.Gen.KernelIdeal.Frame
import proofs.«132174_j31482110279899_2_alg».proof.Proof.Spec
import proofs.«132174_j31482110279899_2_alg».proof.Proof.LibMatmulNN
import proofs.«132174_j31482110279899_2_alg».proof.Proof.LibHostMatmulNN
import proofs.«132174_j31482110279899_2_alg».proof.Proof.LibColumns
import Idealize.ShloMosaic.Lib.Pipeline.Value
import Idealize.ShloMosaic.Lib.ValueIdx

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The body's two stored values at an entry -/

/-- The stored product block at (p, q) is the sum over k of the feature block at (p, k) times the weight at (k, q):
    rounding the operands to bf16 is the identity on the extended reals, and the accumulator starts at zero. -/
theorem prod_apply (x0 : Vec Ideal S5000x128 .f32) (x1 : Vec Ideal S128x64 .f32) (p : Fin 5000) (q : Fin 64) :
    k1_pay1 (F := Ideal) x0 x1 (ix2 p q) = ∑ k : Fin 128, x0 (ix2 p k) * x1 (ix2 k q) := by
  unfold k1_pay1
  refine (Cert.LibMatmulNN.matmul_nn_apply dot_S5000x128_S128x64_S5000x64_1_0_0_1_n_n rfl rfl rfl rfl rfl rfl none
    (truncf .bf16 (shapeCast S5000x128 x0 shapeCasts_S5000x128_S5000x128) bitsLt_bf16_f32) (truncf .bf16 x1 bitsLt_bf16_f32) p q).trans
    (Finset.sum_congr rfl fun k _ => ?_)
  show shapeCast S5000x128 x0 shapeCasts_S5000x128_S5000x128 (ix2 p k) * x1 (ix2 k q) = _
  rw [shapeCast_self]

/-- The stored scaled block at (p, q) is the product block's entry times the column's entry of row p. -/
theorem scaled_apply (x0 : Vec Ideal S5000x128 .f32) (x1 : Vec Ideal S128x64 .f32) (x2 : Vec Ideal S5000x1 .f32)
    (p : Fin 5000) (q : Fin 64) :
    k1_pay2 (F := Ideal) x0 x1 x2 (ix2 p q) = (∑ k : Fin 128, x0 (ix2 p k) * x1 (ix2 k q)) * x2 (ix2 p (0 : Fin 1)) := by
  unfold k1_pay2
  show k1_pay1 (F := Ideal) x0 x1 (ix2 p q)
      * broadcastTo S5000x64 (shapeCast S5000x1 x2 shapeCasts_S5000x1_S5000x1) broadcasts_S5000x1_S5000x64 (ix2 p q) = _
  rw [prod_apply x0 x1 p q,
    Cert.LibColumns.broadcastTo_a1_ab_apply (shapeCast S5000x1 x2 shapeCasts_S5000x1_S5000x1) broadcasts_S5000x1_S5000x64 p q,
    shapeCast_self]

/-! ## The two whole-array functions at an entry -/

/-- The host matrix product at (r, q). -/
theorem mm_apply (X : Cert.Gcn.TF S100000x128) (W : Cert.Gcn.TF S128x64) (r : Fin 100000) (q : Fin 64) :
    Cert.Gcn.mm64 X W (ix2 r q) = ∑ k : Fin 128, X (ix2 r k) * W (ix2 k q) := by
  unfold Cert.Gcn.mm64
  exact Cert.LibHostMatmulNN.hostDot_nn_apply Cert.ReferenceIdeal.dot_S100000x128_S128x64_S100000x64_1_0_0_1_n_n rfl rfl rfl rfl rfl rfl none X W r q

/-- A matrix scaled row by row by a column, at (r, q). -/
theorem scaledcol_apply (H : Cert.Gcn.TF S100000x64) (col : Cert.Gcn.TF S100000x1) (r : Fin 100000) (q : Fin 64) :
    Cert.Gcn.scaled64 H col (ix2 r q) = H (ix2 r q) * col (ix2 r (0 : Fin 1)) := by
  unfold Cert.Gcn.scaled64
  show H (ix2 r q) * broadcastInDim _ ![0, 1] _ col (ix2 r q) = _
  refine congrArg (H (ix2 r q) * ·) (broadcastInDim_apply _ _ col (ix2 r q) (ix2 r (0 : Fin 1)) fun a => ?_)
  match a with
  | ⟨0, _⟩ => rfl
  | ⟨1, _⟩ => rfl

/-! ## The windows' blocks as rows of the arrays -/

/-- The printed index maps, decided over the 20 grid points: the row-blocked windows sit at block row t, the weight
    window at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The feature window's block at point t is rows 5000·t … of the feature array. -/
theorem rows_apply (c : Dev nD) (t : Fin cfg1.N) (p : Fin 5000) (k : Fin 128) (r : Fin 100000)
    (hr : r.val = t.val * 5000 + p.val) :
    (iblk1 V c 0 t : Vec Ideal S5000x128 .f32) (ix2 p k) = (V c main_v49 : S100000x128.Idx → Elt Ideal .f32) (ix2 r k) := by
  obtain ⟨e0, e1, -⟩ := idx_facts t
  unfold iblk1
  rw [View.read_apply]
  show (V c main_v49 : S100000x128.Idx → Elt Ideal .f32) _ = _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The weight window's block at every point is the weight matrix. -/
theorem weights_apply (c : Dev nD) (t : Fin cfg1.N) (k : Fin 128) (q : Fin 64) :
    (iblk1 V c 1 t : Vec Ideal S128x64 .f32) (ix2 k q) = (V c main_arg5 : S128x64.Idx → Elt Ideal .f32) (ix2 k q) := by
  obtain ⟨-, -, e0, e1, -⟩ := idx_facts t
  unfold iblk1
  rw [View.read_apply]
  show (V c main_arg5 : S128x64.Idx → Elt Ideal .f32) _ = _
  refine congrArg _ (funext fun a => Fin.ext ?_)
  match a with
  | ⟨0, _⟩ => show win1_1.index t (0 : Fin 2) * 128 + 1 * k.val = k.val; rw [e0]; omega
  | ⟨1, _⟩ => show win1_1.index t (1 : Fin 2) * 64 + 1 * q.val = q.val; rw [e1]; omega

/-- The column window's block at point t is rows 5000·t … of the column. -/
theorem col_apply (c : Dev nD) (t : Fin cfg1.N) (p : Fin 5000) (r : Fin 100000) (hr : r.val = t.val * 5000 + p.val) :
    (iblk1 V c 2 t : Vec Ideal S5000x1 .f32) (ix2 p (0 : Fin 1)) = (V c main_v51 : S100000x1.Idx → Elt Ideal .f32) (ix2 r (0 : Fin 1)) := by
  obtain ⟨-, -, -, -, e0, e1, -⟩ := idx_facts t
  unfold iblk1
  rw [View.read_apply]
  show (V c main_v51 : S100000x1.Idx → Elt Ideal .f32) _ = _
  refine congrArg _ (funext fun a => Fin.ext ?_)
  match a with
  | ⟨0, _⟩ => show win1_2.index t (0 : Fin 2) * 5000 + 1 * p.val = r.val; rw [e0, hr]; omega
  | ⟨1, _⟩ => show win1_2.index t (1 : Fin 2) * 1 + 1 * 0 = 0; rw [e1]

/-! ## What each point writes back -/

/-- Point t writes back rows 5000·t … of the host matrix product of the entry arrays. -/
theorem flushed3_eq (c : Dev nD) (t : Fin cfg1.N) :
    (dat1 V c).flushed 3 t
      = ((cfg1.win 3).blk t).view.read (Elt Ideal) (Cert.Gcn.mm64 (V c main_v49) (V c main_arg5)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x64) hz]
  funext j
  revert j
  show ∀ j : S5000x64.Idx, k1_pay1 (F := Ideal) (iblk1 V c 0 t) (iblk1 V c 1 t) j
    = Cert.Gcn.mm64 (V c main_v49) (V c main_arg5) (((cfg1.win 3).blk t).view.emb j)
  intro j
  obtain ⟨p, q, rfl⟩ : ∃ (p : Fin 5000) (q : Fin 64), j = ix2 p q := ⟨j 0, j 1, eq_ix2 j⟩
  obtain ⟨-, -, -, -, -, -, e0, e1, -⟩ := idx_facts t
  have hN : cfg1.N = 20 := N_1
  have hr : t.val * 5000 + p.val < 100000 := by have := t.isLt; have := p.isLt; omega
  have hemb : ((cfg1.win 3).blk t).view.emb (ix2 p q) = (ix2 (⟨t.val * 5000 + p.val, hr⟩ : Fin 100000) q : S100000x64.Idx) :=
    funext fun a => Fin.ext (by
      match a with
      | ⟨0, _⟩ => show win1_3.index t (0 : Fin 2) * 5000 + 1 * p.val = t.val * 5000 + p.val; rw [e0]; omega
      | ⟨1, _⟩ => show win1_3.index t (1 : Fin 2) * 64 + 1 * q.val = q.val; rw [e1]; omega)
  rw [hemb, mm_apply]
  refine (prod_apply (iblk1 V c 0 t) (iblk1 V c 1 t) p q).trans (Finset.sum_congr rfl fun k _ => ?_)
  rw [rows_apply V c t p k ⟨t.val * 5000 + p.val, hr⟩ rfl, weights_apply V c t k q]

/-- Point t writes back rows 5000·t … of that product with every row scaled by the entry column. -/
theorem flushed4_eq (c : Dev nD) (t : Fin cfg1.N) :
    (dat1 V c).flushed 4 t
      = ((cfg1.win 4).blk t).view.read (Elt Ideal)
          (Cert.Gcn.scaled64 (Cert.Gcn.mm64 (V c main_v49) (V c main_arg5)) (V c main_v51)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x64) hz, View.ld_unit_zero (S := S5000x1) hz]
  funext j
  revert j
  show ∀ j : S5000x64.Idx, k1_pay2 (F := Ideal) (iblk1 V c 0 t) (iblk1 V c 1 t) (iblk1 V c 2 t) j
    = Cert.Gcn.scaled64 (Cert.Gcn.mm64 (V c main_v49) (V c main_arg5)) (V c main_v51) (((cfg1.win 4).blk t).view.emb j)
  intro j
  obtain ⟨p, q, rfl⟩ : ∃ (p : Fin 5000) (q : Fin 64), j = ix2 p q := ⟨j 0, j 1, eq_ix2 j⟩
  obtain ⟨-, -, -, -, -, -, -, -, e0, e1⟩ := idx_facts t
  have hN : cfg1.N = 20 := N_1
  have hr : t.val * 5000 + p.val < 100000 := by have := t.isLt; have := p.isLt; omega
  have hemb : ((cfg1.win 4).blk t).view.emb (ix2 p q) = (ix2 (⟨t.val * 5000 + p.val, hr⟩ : Fin 100000) q : S100000x64.Idx) :=
    funext fun a => Fin.ext (by
      match a with
      | ⟨0, _⟩ => show win1_4.index t (0 : Fin 2) * 5000 + 1 * p.val = t.val * 5000 + p.val; rw [e0]; omega
      | ⟨1, _⟩ => show win1_4.index t (1 : Fin 2) * 64 + 1 * q.val = q.val; rw [e1]; omega)
  rw [hemb, scaledcol_apply, mm_apply]
  refine (scaled_apply (iblk1 V c 0 t) (iblk1 V c 1 t) (iblk1 V c 2 t) p q).trans ?_
  rw [col_apply V c t p ⟨t.val * 5000 + p.val, hr⟩ rfl]
  refine congrArg (· * _) (Finset.sum_congr rfl fun k _ => ?_)
  rw [rows_apply V c t p k ⟨t.val * 5000 + p.val, hr⟩ rfl, weights_apply V c t k q]

/-! ## The row blocks tile the arrays -/

/-- Row r of a result array lies in the block of point r / 5000. -/
theorem cover3 (i : S100000x64.Idx) :
    ∃ t : Fin cfg1.N, (cfg1.win 3).flush t = true ∧ i ∈ ((cfg1.win 3).blk t).view.set := by
  have hN : cfg1.N = 20 := N_1
  have h0 : (i 0).val < 100000 := (i 0).isLt
  have h1 : (i 1).val < 64 := (i 1).isLt
  let t : Fin cfg1.N := ⟨(i 0).val / 5000, by rw [hN]; omega⟩
  obtain ⟨-, -, -, -, -, -, e0, e1, -⟩ := idx_facts t
  have ht : t.val = (i 0).val / 5000 := rfl
  refine ⟨t, flush1_3 t, ?_⟩
  show i ∈ ((View.whole main_v52_0).slice (win1_3.rect t)).set
  rw [View.set_slice_whole, Rect.mem_set_unit]
  intro a
  match a with
  | ⟨0, _⟩ => show win1_3.index t (0 : Fin 2) * 5000 ≤ (i 0).val ∧ (i 0).val < win1_3.index t (0 : Fin 2) * 5000 + 5000; rw [e0, ht]; omega
  | ⟨1, _⟩ => show win1_3.index t (1 : Fin 2) * 64 ≤ (i 1).val ∧ (i 1).val < win1_3.index t (1 : Fin 2) * 64 + 64; rw [e1]; omega

theorem cover4 (i : S100000x64.Idx) :
    ∃ t : Fin cfg1.N, (cfg1.win 4).flush t = true ∧ i ∈ ((cfg1.win 4).blk t).view.set := by
  have hN : cfg1.N = 20 := N_1
  have h0 : (i 0).val < 100000 := (i 0).isLt
  have h1 : (i 1).val < 64 := (i 1).isLt
  let t : Fin cfg1.N := ⟨(i 0).val / 5000, by rw [hN]; omega⟩
  obtain ⟨-, -, -, -, -, -, -, -, e0, e1⟩ := idx_facts t
  have ht : t.val = (i 0).val / 5000 := rfl
  refine ⟨t, flush1_4 t, ?_⟩
  show i ∈ ((View.whole main_v52_1).slice (win1_4.rect t)).set
  rw [View.set_slice_whole, Rect.mem_set_unit]
  intro a
  match a with
  | ⟨0, _⟩ => show win1_4.index t (0 : Fin 2) * 5000 ≤ (i 0).val ∧ (i 0).val < win1_4.index t (0 : Fin 2) * 5000 + 5000; rw [e0, ht]; omega
  | ⟨1, _⟩ => show win1_4.index t (1 : Fin 2) * 64 ≤ (i 1).val ∧ (i 1).val < win1_4.index t (1 : Fin 2) * 64 + 64; rw [e1]; omega

/-! ## The two result arrays after the region -/

/-- The first result array ends at the host matrix product of the entry arrays. -/
theorem final3 (c : Dev nD) :
    (dat1 V c).arrAt 3 cfg1.N = Cert.Gcn.mm64 (V c main_v49) (V c main_arg5) :=
  (dat1 V c).arrAt_eq_of_cover 3 _ (fun t _ => flushed3_eq V c t) cover3

/-- The second ends at that product with every row scaled by the entry column. -/
theorem final4 (c : Dev nD) :
    (dat1 V c).arrAt 4 cfg1.N
      = Cert.Gcn.scaled64 (Cert.Gcn.mm64 (V c main_v49) (V c main_arg5)) (V c main_v51) :=
  (dat1 V c).arrAt_eq_of_cover 4 _ (fun t _ => flushed4_eq V c t) cover4

end Cert.KernelIdeal.Region1

end
-- ==== Proof.KHost.lean ====
/-
  The idealized kernel program's host operations, read around its two regions: what the buffers that matter hold at
  each boundary of @main, as the functions of `Cert.Gcn` of the seven launch arrays.

  Before the first region the host computes src, dst, dinv and the column dinv²; the first region leaves X·W₁ and its
  row-scaled copy; the host then gathers, scales, scatter-adds, adds the self-loop term and the bias and applies relu,
  and recomputes the column; the second region leaves hidden·W₂ and its row-scaled copy; the last stretch repeats the
  edge aggregation at width 64. Each boundary's contents are read off the fold of the operations before it; a buffer
  no operation in between writes keeps what it held.
-/
import proofs.«132174_j31482110279899_2_alg».proof.Proof.Gen.KernelIdeal.Frame
import proofs.«132174_j31482110279899_2_alg».proof.Proof.Region0
import proofs.«132174_j31482110279899_2_alg».proof.Proof.Region1
import proofs.«132174_j31482110279899_2_alg».proof.Proof.Spec
import proofs.«132174_j31482110279899_2_alg».proof.Proof.LibColumns
import Idealize.ShloMosaic.Lib.StableHlo.Run
import Idealize.ShloMosaic.Lib.Pipeline.Value

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The seven launch arrays. -/
abbrev A0 (c : Dev nD) : Cert.Gcn.TF S100000x128 := m ((c.tc : Thread nD τ).loc main_arg0)
abbrev A1 (c : Dev nD) : Cert.Gcn.TI S2x1600000 := m ((c.tc : Thread nD τ).loc main_arg1)
abbrev A2 (c : Dev nD) : Cert.Gcn.TF S1600000 := m ((c.tc : Thread nD τ).loc main_arg2)
abbrev A3 (c : Dev nD) : Cert.Gcn.TF S128x128 := m ((c.tc : Thread nD τ).loc main_arg3)
abbrev A4 (c : Dev nD) : Cert.Gcn.TF S128 := m ((c.tc : Thread nD τ).loc main_arg4)
abbrev A5 (c : Dev nD) : Cert.Gcn.TF S128x64 := m ((c.tc : Thread nD τ).loc main_arg5)
abbrev A6 (c : Dev nD) : Cert.Gcn.TF S64 := m ((c.tc : Thread nD τ).loc main_arg6)

/-- A vector recast as a column is the vector broadcast into a column: both read, at (r, 0), the vector at r. -/
theorem col_eq (v : Cert.Gcn.TF S100000) (h : S100000.ShapeCasts S100000x1)
    (hb : S100000.BroadcastsInDim S100000x1 (![0] : Fin 1 → Fin S100000x1.rank)) :
    shapeCast S100000x1 v h = broadcastInDim S100000x1 ![0] hb v := by
  funext i
  obtain ⟨r, u, rfl⟩ : ∃ (r : Fin 100000) (u : Fin 1), i = ix2 r u := ⟨i 0, i 1, eq_ix2 i⟩
  rw [Cert.LibColumns.shapeCast_a_a1_apply v h r u]
  refine (broadcastInDim_apply _ hb v (ix2 r u) (ix1 r) fun a => ?_).symm
  match a with
  | ⟨0, _⟩ => rfl

set_option maxHeartbeats 400000

/-! ## Before the first region -/

theorem W3_arg0 (c : Dev nD) : W3 m ρ c (Proc.devRef .tc main_arg0) = A0 m c := by
  dsimp only [W3, W2, W1, hostOps0, hostOps0_1, hostOps0_2]; after_results_simp
theorem W3_arg2 (c : Dev nD) : W3 m ρ c (Proc.devRef .tc main_arg2) = A2 m c := by
  dsimp only [W3, W2, W1, hostOps0, hostOps0_1, hostOps0_2]; after_results_simp
theorem W3_arg3 (c : Dev nD) : W3 m ρ c (Proc.devRef .tc main_arg3) = A3 m c := by
  dsimp only [W3, W2, W1, hostOps0, hostOps0_1, hostOps0_2]; after_results_simp
theorem W3_arg4 (c : Dev nD) : W3 m ρ c (Proc.devRef .tc main_arg4) = A4 m c := by
  dsimp only [W3, W2, W1, hostOps0, hostOps0_1, hostOps0_2]; after_results_simp
theorem W3_arg5 (c : Dev nD) : W3 m ρ c (Proc.devRef .tc main_arg5) = A5 m c := by
  dsimp only [W3, W2, W1, hostOps0, hostOps0_1, hostOps0_2]; after_results_simp
theorem W3_arg6 (c : Dev nD) : W3 m ρ c (Proc.devRef .tc main_arg6) = A6 m c := by
  dsimp only [W3, W2, W1, hostOps0, hostOps0_1, hostOps0_2]; after_results_simp

/-- The source node of every edge. -/
theorem W3_src (c : Dev nD) : W3 m ρ c (Proc.devRef .tc main_v1) = Cert.Gcn.src (A1 m c) := by
  dsimp only [W3, W2, W1, hostOps0, hostOps0_1, hostOps0_2]; after_results_simp; rfl
/-- The target node of every edge. -/
theorem W3_dst (c : Dev nD) : W3 m ρ c (Proc.devRef .tc main_v3) = Cert.Gcn.dst (A1 m c) := by
  dsimp only [W3, W2, W1, hostOps0, hostOps0_1, hostOps0_2]; after_results_simp; rfl

/-- After the first stretch: where the degree is positive, its inverse square root, and the zero that fills the rest. -/
theorem W1_pos (c : Dev nD) : W1 m ρ c (Proc.devRef .tc main_v10)
    = cmpf .ogt (Cert.Gcn.deg (A1 m c) (A2 m c)) (broadcastInDim S100000 ![] bcast_S_S100000 (constant (F := Ideal) S_ .f32 0x00000000#32)) := by
  dsimp only [W1, hostOps0]; after_results_simp; rfl
theorem W1_rsqrt (c : Dev nD) : W1 m ρ c (Proc.devRef .tc main_v11) = Host.rsqrt (F := Ideal) (Cert.Gcn.deg (A1 m c) (A2 m c)) := by
  dsimp only [W1, hostOps0]; after_results_simp; rfl
theorem W1_zero (c : Dev nD) : W1 m ρ c (Proc.devRef .tc main_cst_2) = constant (F := Ideal) S_ .f32 0x00000000#32 := by
  dsimp only [W1, hostOps0]; after_results_simp

/-- deg^(-1/2) where the degree is positive, 0 elsewhere: the selection, made once. -/
theorem W2_dinv (c : Dev nD) : W2 m ρ c (Proc.devRef .tc main_v12) = Cert.Gcn.dinv (A1 m c) (A2 m c) := by
  have h10 := W1_pos m ρ c
  have h11 := W1_rsqrt m ρ c
  have h0 := W1_zero m ρ c
  show StableHlo.after hostOps0_1 (W1 m ρ c) (Proc.devRef .tc main_v12) = _
  generalize W1 m ρ c = V1 at h10 h11 h0 ⊢
  dsimp only [hostOps0_1]; after_results_simp
  refine Eq.trans (b := select (V1 (Proc.devRef .tc main_v10)) (V1 (Proc.devRef .tc main_v11))
    (broadcastInDim S100000 ![] bcast_S_S100000 (V1 (Proc.devRef .tc main_cst_2)))) rfl ?_
  rw [h10, h11, h0]
  unfold Cert.Gcn.dinv
  rfl
theorem W3_dinv (c : Dev nD) : W3 m ρ c (Proc.devRef .tc main_v12) = Cert.Gcn.dinv (A1 m c) (A2 m c) := by
  have h := W2_dinv m ρ c
  show StableHlo.after hostOps0_2 (W2 m ρ c) (Proc.devRef .tc main_v12) = _
  generalize W2 m ρ c = V2 at h ⊢
  dsimp only [hostOps0_2]; after_results_simp
  exact h

/-- Its square as a column. -/
theorem W3_sqcol (c : Dev nD) : W3 m ρ c (Proc.devRef .tc main_v14) = Cert.Gcn.sqcol (Cert.Gcn.dinv (A1 m c) (A2 m c)) := by
  refine Eq.trans ?_ (col_eq (mulf (Cert.Gcn.dinv (A1 m c) (A2 m c)) (Cert.Gcn.dinv (A1 m c) (A2 m c))) shapeCasts_S100000_S100000x1 _)
  have h := W2_dinv m ρ c
  show StableHlo.after hostOps0_2 (W2 m ρ c) (Proc.devRef .tc main_v14) = _
  generalize W2 m ρ c = V2 at h ⊢
  dsimp only [hostOps0_2]; after_results_simp
  rw [h]
  rfl

/-! ## After the first region -/

/-- The first region's first result: X · W₁. -/
theorem W4_prod (c : Dev nD) : W4 m ρ c (Proc.devRef .tc main_v15_0) = Cert.Gcn.mm128 (A0 m c) (A3 m c) :=
  (W4_arr m ρ c 3).trans ((Cert.KernelIdeal.Region0.final3 (V3 m ρ) c).trans
    (congrArg₂ Cert.Gcn.mm128 (W3_arg0 m ρ c) (W3_arg3 m ρ c)))

/-- Its second result: X · W₁ with row r scaled by dinv²[r]. -/
theorem W4_scaled (c : Dev nD) : W4 m ρ c (Proc.devRef .tc main_v15_1)
    = Cert.Gcn.scaled128 (Cert.Gcn.mm128 (A0 m c) (A3 m c)) (Cert.Gcn.sqcol (Cert.Gcn.dinv (A1 m c) (A2 m c))) :=
  (W4_arr m ρ c 4).trans ((Cert.KernelIdeal.Region0.final4 (V3 m ρ) c).trans
    (congrArg₂ Cert.Gcn.scaled128 (congrArg₂ Cert.Gcn.mm128 (W3_arg0 m ρ c) (W3_arg3 m ρ c)) (W3_sqcol m ρ c)))

theorem W4_src (c : Dev nD) : W4 m ρ c (Proc.devRef .tc main_v1) = Cert.Gcn.src (A1 m c) :=
  (W4_of_ne m ρ c main_v1 (by decide)).trans (W3_src m ρ c)
theorem W4_dst (c : Dev nD) : W4 m ρ c (Proc.devRef .tc main_v3) = Cert.Gcn.dst (A1 m c) :=
  (W4_of_ne m ρ c main_v3 (by decide)).trans (W3_dst m ρ c)
theorem W4_dinv (c : Dev nD) : W4 m ρ c (Proc.devRef .tc main_v12) = Cert.Gcn.dinv (A1 m c) (A2 m c) :=
  (W4_of_ne m ρ c main_v12 (by decide)).trans (W3_dinv m ρ c)
theorem W4_arg2 (c : Dev nD) : W4 m ρ c (Proc.devRef .tc main_arg2) = A2 m c :=
  (W4_of_ne m ρ c main_arg2 (by decide)).trans (W3_arg2 m ρ c)
theorem W4_arg4 (c : Dev nD) : W4 m ρ c (Proc.devRef .tc main_arg4) = A4 m c :=
  (W4_of_ne m ρ c main_arg4 (by decide)).trans (W3_arg4 m ρ c)
theorem W4_arg5 (c : Dev nD) : W4 m ρ c (Proc.devRef .tc main_arg5) = A5 m c :=
  (W4_of_ne m ρ c main_arg5 (by decide)).trans (W3_arg5 m ρ c)
theorem W4_arg6 (c : Dev nD) : W4 m ρ c (Proc.devRef .tc main_arg6) = A6 m c :=
  (W4_of_ne m ρ c main_arg6 (by decide)).trans (W3_arg6 m ρ c)

/-! ## Before the second region -/

/-- The first layer before relu: the messages summed into their target rows, the self-loop term, the bias. -/
theorem W5_layer (c : Dev nD) : W5 m ρ c (Proc.devRef .tc main_v48)
    = Cert.Gcn.layer128 (Cert.Gcn.mm128 (A0 m c) (A3 m c))
        (Cert.Gcn.scaled128 (Cert.Gcn.mm128 (A0 m c) (A3 m c)) (Cert.Gcn.sqcol (Cert.Gcn.dinv (A1 m c) (A2 m c))))
        (Cert.Gcn.dinv (A1 m c) (A2 m c)) (A1 m c) (A2 m c) (A4 m c) := by
  dsimp only [W5, hostOps1]; after_results_simp
  rw [W4_prod, W4_scaled, W4_src, W4_dst, W4_dinv, W4_arg2, W4_arg4]
  unfold Cert.Gcn.layer128
  rfl

/-- The hidden features: relu of the first layer. -/
theorem W6_hidden (c : Dev nD) : W6 m ρ c (Proc.devRef .tc main_v49)
    = Cert.Gcn.hidden (A0 m c) (A1 m c) (A2 m c) (A3 m c) (A4 m c) := by
  have h := W5_layer m ρ c
  show StableHlo.after hostOps1_1 (W5 m ρ c) (Proc.devRef .tc main_v49) = _
  generalize W5 m ρ c = V5 at h ⊢
  dsimp only [hostOps1_1]; after_results_simp
  refine Eq.trans (b := maximumf (V5 (Proc.devRef .tc main_v48))
    (broadcastInDim S100000x128 ![] bcast_S_S100000x128 (constant (F := Ideal) S_ .f32 0x00000000#32))) rfl ?_
  rw [h]
  unfold Cert.Gcn.hidden Cert.Gcn.relu
  rfl

theorem W7_hidden (c : Dev nD) : W7 m ρ c (Proc.devRef .tc main_v49)
    = Cert.Gcn.hidden (A0 m c) (A1 m c) (A2 m c) (A3 m c) (A4 m c) := by
  have h := W6_hidden m ρ c
  show StableHlo.after hostOps1_2 (W6 m ρ c) (Proc.devRef .tc main_v49) = _
  generalize W6 m ρ c = V6 at h ⊢
  dsimp only [hostOps1_2]; after_results_simp
  exact h

/-- dinv² as a column again. -/
theorem W7_sqcol (c : Dev nD) : W7 m ρ c (Proc.devRef .tc main_v51) = Cert.Gcn.sqcol (Cert.Gcn.dinv (A1 m c) (A2 m c)) := by
  refine Eq.trans ?_ (col_eq (mulf (Cert.Gcn.dinv (A1 m c) (A2 m c)) (Cert.Gcn.dinv (A1 m c) (A2 m c))) shapeCasts_S100000_S100000x1 _)
  dsimp only [W7, W6, W5, hostOps1, hostOps1_1, hostOps1_2]; after_results_simp
  rw [W4_dinv]
  rfl

theorem W7_src (c : Dev nD) : W7 m ρ c (Proc.devRef .tc main_v1) = Cert.Gcn.src (A1 m c) := by
  dsimp only [W7, W6, W5, hostOps1, hostOps1_1, hostOps1_2]; after_results_simp; exact W4_src m ρ c
theorem W7_dst (c : Dev nD) : W7 m ρ c (Proc.devRef .tc main_v3) = Cert.Gcn.dst (A1 m c) := by
  dsimp only [W7, W6, W5, hostOps1, hostOps1_1, hostOps1_2]; after_results_simp; exact W4_dst m ρ c
theorem W7_dinv (c : Dev nD) : W7 m ρ c (Proc.devRef .tc main_v12) = Cert.Gcn.dinv (A1 m c) (A2 m c) := by
  dsimp only [W7, W6, W5, hostOps1, hostOps1_1, hostOps1_2]; after_results_simp; exact W4_dinv m ρ c
theorem W7_arg2 (c : Dev nD) : W7 m ρ c (Proc.devRef .tc main_arg2) = A2 m c := by
  dsimp only [W7, W6, W5, hostOps1, hostOps1_1, hostOps1_2]; after_results_simp; exact W4_arg2 m ρ c
theorem W7_arg5 (c : Dev nD) : W7 m ρ c (Proc.devRef .tc main_arg5) = A5 m c := by
  dsimp only [W7, W6, W5, hostOps1, hostOps1_1, hostOps1_2]; after_results_simp; exact W4_arg5 m ρ c
theorem W7_arg6 (c : Dev nD) : W7 m ρ c (Proc.devRef .tc main_arg6) = A6 m c := by
  dsimp only [W7, W6, W5, hostOps1, hostOps1_1, hostOps1_2]; after_results_simp; exact W4_arg6 m ρ c

/-! ## After the second region -/

/-- The second region's first result: hidden · W₂. -/
theorem W8_prod (c : Dev nD) : W8 m ρ c (Proc.devRef .tc main_v52_0)
    = Cert.Gcn.mm64 (Cert.Gcn.hidden (A0 m c) (A1 m c) (A2 m c) (A3 m c) (A4 m c)) (A5 m c) :=
  (W8_arr m ρ c 3).trans ((Cert.KernelIdeal.Region1.final3 (V7 m ρ) c).trans
    (congrArg₂ Cert.Gcn.mm64 (W7_hidden m ρ c) (W7_arg5 m ρ c)))

/-- Its second result: hidden · W₂ with row r scaled by dinv²[r]. -/
theorem W8_scaled (c : Dev nD) : W8 m ρ c (Proc.devRef .tc main_v52_1)
    = Cert.Gcn.scaled64 (Cert.Gcn.mm64 (Cert.Gcn.hidden (A0 m c) (A1 m c) (A2 m c) (A3 m c) (A4 m c)) (A5 m c))
        (Cert.Gcn.sqcol (Cert.Gcn.dinv (A1 m c) (A2 m c))) :=
  (W8_arr m ρ c 4).trans ((Cert.KernelIdeal.Region1.final4 (V7 m ρ) c).trans
    (congrArg₂ Cert.Gcn.scaled64 (congrArg₂ Cert.Gcn.mm64 (W7_hidden m ρ c) (W7_arg5 m ρ c)) (W7_sqcol m ρ c)))

theorem W8_src (c : Dev nD) : W8 m ρ c (Proc.devRef .tc main_v1) = Cert.Gcn.src (A1 m c) :=
  (W8_of_ne m ρ c main_v1 (by decide)).trans (W7_src m ρ c)
theorem W8_dst (c : Dev nD) : W8 m ρ c (Proc.devRef .tc main_v3) = Cert.Gcn.dst (A1 m c) :=
  (W8_of_ne m ρ c main_v3 (by decide)).trans (W7_dst m ρ c)
theorem W8_dinv (c : Dev nD) : W8 m ρ c (Proc.devRef .tc main_v12) = Cert.Gcn.dinv (A1 m c) (A2 m c) :=
  (W8_of_ne m ρ c main_v12 (by decide)).trans (W7_dinv m ρ c)
theorem W8_arg2 (c : Dev nD) : W8 m ρ c (Proc.devRef .tc main_arg2) = A2 m c :=
  (W8_of_ne m ρ c main_arg2 (by decide)).trans (W7_arg2 m ρ c)
theorem W8_arg6 (c : Dev nD) : W8 m ρ c (Proc.devRef .tc main_arg6) = A6 m c :=
  (W8_of_ne m ρ c main_arg6 (by decide)).trans (W7_arg6 m ρ c)

/-! ## The result -/

/-- After the last stretch the result buffer holds the two-layer graph convolution of the launch arrays. -/
theorem result (c : Dev nD) : W9 m ρ c (Proc.devRef .tc main_v85)
    = Cert.Gcn.out (A0 m c) (A1 m c) (A2 m c) (A3 m c) (A4 m c) (A5 m c) (A6 m c) := by
  dsimp only [W9, hostOps2]
  after_results_simp
  rw [W8_prod, W8_scaled, W8_src, W8_dst, W8_dinv, W8_arg2, W8_arg6]
  unfold Cert.Gcn.out Cert.Gcn.layer64
  rfl

end Cert.KernelIdeal.HostSide

end
-- ==== Proof.RefOut.lean ====
/-
  The reference program computes the two-layer graph convolution `Cert.Gcn.out` of its arguments: its composed term is
  that function's definition unfolded — the reference computes the degree normalisation once per layer, from the same
  edges and weights, so both copies are the one `dinv`.
-/
import proofs.«132174_j31482110279899_2_alg».proof.Proof.Gen.ReferenceIdeal.Run
import proofs.«132174_j31482110279899_2_alg».proof.Proof.Spec

noncomputable section

namespace Cert.Gcn

open Cert.ReferenceIdeal Idealize.ShloMosaic Idealize.ShloMosaic.TcCoe Idealize.SL.Sem

set_option maxRecDepth 16384 in
set_option maxHeartbeats 2000000 in
/-- The reference's result term is `out` of the launch contents of its seven arguments. -/
theorem ref_out (m : (ℓ : Loc nD τ sig) → Buf (Elt Ideal) ℓ) (c : Dev nD) :
    Cert.ReferenceIdeal.Value.res_main_v98 (F := Ideal) m c
      = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Cert.ReferenceIdeal.Value.res_main_v98
  rfl

end Cert.Gcn

end
-- ==== Proof.lean ====
/-
  A two-layer graph convolution: the kernel program against its jnp reference, over the extended reals.

  Both programs compute, for node features x on a graph of 100000 nodes and 1600000 weighted edges,
      layer(X, W, b) = (Σ over edges e into a row of (X·W)[src e] · dinv[src e] · w e · dinv[dst e]) + (X·W) · dinv² + b,
      result = layer(relu(layer(x, W₁, b₁)), W₂, b₂),
  with dinv = deg^(-1/2) where the weighted in-degree plus one is positive. The kernel program computes each X·W and
  its row-scaled copy (X·W)·dinv² in a region of 20 row blocks, rounding the operands of the product to bf16 — the
  identity on the extended reals — and accumulating from zero; the reference computes X·W by one host matrix product and
  scales it on the host. Everything else — the degree, the gathers along src, the scatter-add along dst, the bias, relu
  — is the same sequence of host operations in both, the reference merely recomputing dinv for the second layer from
  the same edges. So both results are the one function `Cert.Gcn.out` of the seven arguments: the regions' result
  arrays are read as whole arrays (Proof/Region0.lean, Proof/Region1.lean: the row blocks tile the rows, and entry by
  entry both matrix products are the same sum over k), the kernel program's host stretches around them are read off
  its run (Proof/KRun.lean, Proof/KHost.lean), and the reference's term is `out` unfolded (Proof/RefOut.lean). No
  algebraic law beyond that identity is used, so the finiteness precondition is never opened.
-/
import proofs.«132174_j31482110279899_2_alg».proof.Defs
import proofs.«132174_j31482110279899_2_alg».proof.Proof.Gen.Kernel
import proofs.«132174_j31482110279899_2_alg».proof.Proof.Gen.Kernel.Skeleton
import proofs.«132174_j31482110279899_2_alg».proof.Proof.Gen.Kernel.Launch
import proofs.«132174_j31482110279899_2_alg».proof.Proof.Gen.Kernel.Points
import proofs.«132174_j31482110279899_2_alg».proof.Proof.Gen.Kernel.Frame
import proofs.«132174_j31482110279899_2_alg».proof.Proof.Gen.KernelIdeal
import proofs.«132174_j31482110279899_2_alg».proof.Proof.Gen.KernelIdeal.Skeleton
import proofs.«132174_j31482110279899_2_alg».proof.Proof.Gen.KernelIdeal.Launch
import proofs.«132174_j31482110279899_2_alg».proof.Proof.Gen.KernelIdeal.Points
import proofs.«132174_j31482110279899_2_alg».proof.Proof.Gen.KernelIdeal.Frame
import proofs.«132174_j31482110279899_2_alg».proof.Proof.Gen.ReferenceIdeal
import proofs.«132174_j31482110279899_2_alg».proof.Proof.Gen.Pre_finite_inputs
import proofs.«132174_j31482110279899_2_alg».proof.Proof.Gen.ReferenceIdeal.Run
import proofs.«132174_j31482110279899_2_alg».proof.Proof.KRun
import proofs.«132174_j31482110279899_2_alg».proof.Proof.KHost
import proofs.«132174_j31482110279899_2_alg».proof.Proof.RefOut
import Idealize.ShloMosaic.Adequacy
import Idealize.ShloMosaic.Init

noncomputable section

namespace Cert.Proof

open Idealize.ShloMosaic Idealize.SL.Sem

/-- The kernel program as printed runs and leaves its arguments unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is host operations only: its run with the result dropped. -/
theorem frame_r : Cert.frame_ReferenceIdeal := fun m ρ _ =>
  (θ_run Cert.ReferenceIdeal.defs _ _).mono (fun _ h c => (h c).2) (Cert.ReferenceIdeal.Value.run (F := Ideal) m ρ)

/-- Both programs end with the result array at `Cert.Gcn.out` of arguments that agree. -/
theorem algebraic : Cert.algebraic_KernelIdeal_ReferenceIdeal := by
  intro m ρ m' ρ' _ hagree
  refine ⟨fun c => Cert.Gcn.out (Cert.KernelIdeal.HostSide.A0 m c) (Cert.KernelIdeal.HostSide.A1 m c)
      (Cert.KernelIdeal.HostSide.A2 m c) (Cert.KernelIdeal.HostSide.A3 m c) (Cert.KernelIdeal.HostSide.A4 m c)
      (Cert.KernelIdeal.HostSide.A5 m c) (Cert.KernelIdeal.HostSide.A6 m c), ?_, ?_⟩
  · exact (θ_run Cert.KernelIdeal.defs _ _).mono
      (fun _ h c => ⟨(h c).1.trans (Cert.KernelIdeal.HostSide.result m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [Cert.Gcn.ref_out, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
